-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_6 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S400x128 : 0 < S400x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Body.lean ====
/-
  What one grid step leaves in the output's staging buffer.

  At grid coordinate `i` the body loads its block of 400 adjacency rows, the whole feature array and the two weight
  matrices, loads rows `400·i … 400·i + 399` of the feature array a second time through a rectangle whose row offset it
  computes from `i`, and stores ONE value over the whole 400 × 128 output block.  So the block holds that store's
  payload: the body's arithmetic applied to the loaded arrays and to those 400 feature rows.  This holds for any
  float values.
-/
import proofs.«100764_g29996051595531_retrytranche2_1041_19_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.Body

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The 400 rows of the feature array that the body loads a second time at grid coordinate `i`. -/
abbrev ownRows (i : grid0.Coords) (x1 : Vec F S10000x128 .f32) : Vec F S400x128 .f32 :=
  View.ld x1 (Rect.unit (s := S10000x128) (k0_off1 i) S400x128.size (k0_off1_inb i))

/-- Row `p` of them is row `400·i + p` of the feature array. -/
theorem ownRows_apply (i : grid0.Coords) (x1 : Vec F S10000x128 .f32) (p : Fin 400) (q : Fin 128)
    (r : Fin 10000) (hr : r.val = 400 * (i 0).val + p.val) :
    ownRows i x1 (ix2 p q) = x1 (ix2 r q) := by
  show x1 _ = x1 _
  congr 1
  funext a
  apply Fin.ext
  match a with
  | ⟨0, _⟩ =>
    show k0_off1 i 0 + 1 * p.val = r.val
    rw [k0_off1_eq i, hr]
    show 400 * (i 0).val + 1 * p.val = _
    omega
  | ⟨1, _⟩ =>
    show k0_off1 i 1 + 1 * q.val = q.val
    rw [k0_off1_eq i]
    show 0 + 1 * q.val = _
    omega

/-- The output block after the body: its one covering store's payload, whose loads read the whole buffers and the
    body's own 400 feature rows. -/
theorem block_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S128x128 .f32) (h4 : a4.IsWhole) (a5 : Memref sig .tc .vmem S400x128 .f32) (h5 : a5.IsWhole)
    (x0 : Vec F S400x10000 .f32) (x1 : Vec F S10000x128 .f32) (x2 : Vec F S128x128 .f32) (x3 : Vec F S128x128 .f32) :
    out0_A_4 c i a1 h1 a2 h2 a3 h3 a4 h4 a5 h5 x0 x1 x2 x3 = k0_pay1 x0 x1 x3 (ownRows i x1) x2 := by
  unfold out0_A_4
  rw [View.read_writes_eq_canon _ _ _ (cover0_A_4 c i a1 h1 a2 h2 a3 h3 a4 h4 a5 h5 x0 x1 x2 x3)]
  unfold kernelRun0_A
  dsimp only
  rw [View.canon_unit_zero hz]
  simp only [View.readAt_eq_ld, h1.read_unread, h2.read_unread, h3.read_unread, h4.read_unread,
    View.ld_unit_zero (S := S400x10000) hz, View.ld_unit_zero (S := S10000x128) hz, View.ld_unit_zero (S := S128x128) hz]

end Cert.KernelIdeal.Body

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Payload.lean ====
/-
  The body's arithmetic read at one entry, on the extended reals.

  With `a` the block of 400 adjacency rows, `x` the whole feature array, `wn` and `ws` the weight matrices and `xs` the
  block's own 400 feature rows, entry `(p, q)` of what the body stores is

      max ( ∑ k, (∑ l, a (p, l) * x (l, k)) * wn (k, q)  +  ∑ k, xs (p, k) * ws (k, q) , 0 ).

  Each of the three matrix products accumulates into the zero block, which adds nothing, and contracts the left
  operand's second axis against the right operand's first: a plain sum over the contracted coordinate.
-/
import proofs.«100764_g29996051595531_retrytranche2_1041_19_alg».proof.Proof.Gen.KernelIdeal.Skeleton
import proofs.«100764_g29996051595531_retrytranche2_1041_19_alg».proof.Proof.LibPlainDot
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The 400 × 10000 by 10000 × 128 product: which operand entries meet at an output entry -/

theorem agg_l0 (j : S400x128.Idx) (q : dot_S400x10000_S10000x128_S400x128_1_0_0_1_n_n.contr.Idx) :
    (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_l1 (j : S400x128.Idx) (q : dot_S400x10000_S10000x128_S400x128_1_0_0_1_n_n.contr.Idx) :
    (dot_S400x10000_S10000x128_S400x128_1_0_0_1_n_n.lhsIdx j q 1).val = (q ⟨0, by decide⟩).val :=
  dot_S400x10000_S10000x128_S400x128_1_0_0_1_n_n.lhsIdx_val_of_single rfl j q
theorem agg_r0 (j : S400x128.Idx) (q : dot_S400x10000_S10000x128_S400x128_1_0_0_1_n_n.contr.Idx) :
    (dot_S400x10000_S10000x128_S400x128_1_0_0_1_n_n.rhsIdx j q 0).val = (q ⟨0, by decide⟩).val :=
  dot_S400x10000_S10000x128_S400x128_1_0_0_1_n_n.rhsIdx_val_of_single rfl j q
theorem agg_r1 (j : S400x128.Idx) (q : dot_S400x10000_S10000x128_S400x128_1_0_0_1_n_n.contr.Idx) :
    (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The block's neighbour aggregate at `(p, k)`: adjacency row `p` of the block against feature column `k`. -/
theorem aggregate_apply (a : FVec Ideal S400x10000 .f32) (x : FVec Ideal S10000x128 .f32) (j : S400x128.Idx) :
    FloatOps.matmul dot_S400x10000_S10000x128_S400x128_1_0_0_1_n_n none a x (constant S400x128 .f32 0x00000000#32) j
      = ∑ l : Fin 10000, a (ix2 (j 0) l) * x (ix2 l (j 1)) :=
  Cert.Lib.PlainDot.matmul_zero_apply dot_S400x10000_S10000x128_S400x128_1_0_0_1_n_n rfl rfl agg_l0 agg_l1 agg_r0 agg_r1 none a x j

/-! ## The 400 × 128 by 128 × 128 product -/

theorem lin_l0 (j : S400x128.Idx) (q : dot_S400x128_S128x128_S400x128_1_0_0_1_n_n.contr.Idx) :
    (dot_S400x128_S128x128_S400x128_1_0_0_1_n_n.lhsIdx j q 0).val = (j 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lin_l1 (j : S400x128.Idx) (q : dot_S400x128_S128x128_S400x128_1_0_0_1_n_n.contr.Idx) :
    (dot_S400x128_S128x128_S400x128_1_0_0_1_n_n.lhsIdx j q 1).val = (q ⟨0, by decide⟩).val :=
  dot_S400x128_S128x128_S400x128_1_0_0_1_n_n.lhsIdx_val_of_single rfl j q
theorem lin_r0 (j : S400x128.Idx) (q : dot_S400x128_S128x128_S400x128_1_0_0_1_n_n.contr.Idx) :
    (dot_S400x128_S128x128_S400x128_1_0_0_1_n_n.rhsIdx j q 0).val = (q ⟨0, by decide⟩).val :=
  dot_S400x128_S128x128_S400x128_1_0_0_1_n_n.rhsIdx_val_of_single rfl j q
theorem lin_r1 (j : S400x128.Idx) (q : dot_S400x128_S128x128_S400x128_1_0_0_1_n_n.contr.Idx) :
    (dot_S400x128_S128x128_S400x128_1_0_0_1_n_n.rhsIdx j q 1).val = (j 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A block of 400 rows sent through a 128 × 128 weight matrix, at `(p, q)`. -/
theorem linear_apply (y : FVec Ideal S400x128 .f32) (w : FVec Ideal S128x128 .f32) (j : S400x128.Idx) :
    FloatOps.matmul dot_S400x128_S128x128_S400x128_1_0_0_1_n_n none y w (constant S400x128 .f32 0x00000000#32) j
      = ∑ k : Fin 128, y (ix2 (j 0) k) * w (ix2 k (j 1)) :=
  Cert.Lib.PlainDot.matmul_zero_apply dot_S400x128_S128x128_S400x128_1_0_0_1_n_n rfl rfl lin_l0 lin_l1 lin_r0 lin_r1 none y w j

/-! ## The stored value at an entry -/

/-- Entry `(p, q)` of the body's stored value: the neighbour aggregate through `wn`, plus the own rows through `ws`,
    clamped below at the value of the zero word. -/
theorem payload_apply (a : Vec Ideal S400x10000 .f32) (x : Vec Ideal S10000x128 .f32) (wn : Vec Ideal S128x128 .f32)
    (xs : Vec Ideal S400x128 .f32) (ws : Vec Ideal S128x128 .f32) (p : Fin 400) (q : Fin 128) :
    k0_pay1 (F := Ideal) a x wn xs ws (ix2 p q)
      = max ((∑ k : Fin 128, (∑ l : Fin 10000, a (ix2 p l) * x (ix2 l k)) * wn (ix2 k q))
          + ∑ k : Fin 128, xs (ix2 p k) * ws (ix2 k q)) (Ideal.ofBits .f32 0x00000000#32) := by
  have e : k0_pay1 (F := Ideal) a x wn xs ws (ix2 p q)
      = max (FloatOps.matmul dot_S400x128_S128x128_S400x128_1_0_0_1_n_n none
                (FloatOps.matmul dot_S400x10000_S10000x128_S400x128_1_0_0_1_n_n none a x (constant (F := Ideal) S400x128 .f32 0x00000000#32))
                wn (constant (F := Ideal) S400x128 .f32 0x00000000#32) (ix2 p q)
            + FloatOps.matmul dot_S400x128_S128x128_S400x128_1_0_0_1_n_n none xs ws (constant (F := Ideal) S400x128 .f32 0x00000000#32) (ix2 p q))
          (Ideal.ofBits .f32 0x00000000#32) := rfl
  rw [e, linear_apply, linear_apply]
  refine congrArg₂ max (congrArg₂ (fun u v : EReal => u + v) (Finset.sum_congr rfl fun k _ => ?_) rfl) rfl
  exact congrArg (fun z : EReal => z * wn (ix2 k q)) (aggregate_apply a x (ix2 p k))

end Cert.KernelIdeal.Payload

end
-- ==== Proof.Spec.lean ====
/-
  One layer of neighbourhood aggregation over a dense graph, entry by entry on the extended reals.

  With `feat` the 10000 × 128 node features, `adj` the 10000 × 10000 adjacency weights and `ws`, `wn` the two
  128 × 128 weight matrices, row `r` of the result is

      max ( (adj · feat) · wn + feat · ws , 0 )        at (r, j),

  that is: the neighbour aggregate `∑ l, adj (r, l) * feat (l, k)` of row `r`, sent through `wn`; plus row `r` of
  `feat` itself sent through `ws`; clamped below at zero.  Every entry of row `r` depends on row `r` of `adj`, on row
  `r` of `feat`, and on the whole of `feat`, `ws` and `wn`.  The two summands may be written in either order: addition
  of extended reals is commutative, with no finiteness needed.
-/
import Idealize.ShloMosaic.Lib.ValueIdx
import Idealize.ShloMosaic.PureOps.Ideal.Laws

noncomputable section

open scoped BigOperators

namespace Cert.GraphLayer

open Idealize.ShloMosaic Idealize.ShloMosaic.ValueIdx

/-- The node-feature array's index set, the adjacency array's, and a weight matrix's. -/
abbrev FeatIdx := (⟨2, ![10000, 128]⟩ : Shape).Idx
abbrev AdjIdx := (⟨2, ![10000, 10000]⟩ : Shape).Idx
abbrev WIdx := (⟨2, ![128, 128]⟩ : Shape).Idx

/-- Entry `(r, k)` of `adj · feat`: node `r`'s neighbours' features, weighted by the adjacency row. -/
def aggregate (adj : AdjIdx → EReal) (feat : FeatIdx → EReal) (r : Fin 10000) (k : Fin 128) : EReal :=
  ∑ l : Fin 10000, adj (ix2 r l) * feat (ix2 l k)

/-- Entry `(r, j)` of `(adj · feat) · wn`. -/
def neighTerm (adj : AdjIdx → EReal) (feat : FeatIdx → EReal) (wn : WIdx → EReal) (r : Fin 10000) (j : Fin 128) : EReal :=
  ∑ k : Fin 128, aggregate adj feat r k * wn (ix2 k j)

/-- Entry `(r, j)` of `feat · ws`. -/
def selfTerm (feat : FeatIdx → EReal) (ws : WIdx → EReal) (r : Fin 10000) (j : Fin 128) : EReal :=
  ∑ k : Fin 128, feat (ix2 r k) * ws (ix2 k j)

/-- The layer's output: the neighbour term plus the self term, clamped below at the value of the zero word. -/
def layer (feat : FeatIdx → EReal) (adj : AdjIdx → EReal) (ws wn : WIdx → EReal) : FeatIdx → EReal :=
  fun i => max (neighTerm adj feat wn (i 0) (i 1) + selfTerm feat ws (i 0) (i 1)) (Ideal.ofBits .f32 0x00000000#32)

/-- The same output with the two summands in the other order. -/
theorem layer_comm (feat : FeatIdx → EReal) (adj : AdjIdx → EReal) (ws wn : WIdx → EReal) (i : FeatIdx) :
    max (selfTerm feat ws (i 0) (i 1) + neighTerm adj feat wn (i 0) (i 1)) (Ideal.ofBits .f32 0x00000000#32)
      = layer feat adj ws wn i := by
  unfold layer
  rw [add_comm]

end Cert.GraphLayer

end
-- ==== Proof.BlockEntry.lean ====
/-
  One entry of one output block is one entry of the layer.

  Suppose a grid step at coordinate `i` is handed, as its adjacency block, rows `400·i … 400·i + 399` of the adjacency
  array, and the whole feature array and weight matrices.  Then entry `(p, q)` of the block it leaves is entry
  `(400·i + p, q)` of the layer: the block's adjacency row `p` is the array's row `400·i + p`, and the 400 feature
  rows the step loads for itself are the same rows of the feature array, so both summands and the clamp agree term by
  term.  Nothing is rearranged here; the two sides are the same sums.
-/
import proofs.«100764_g29996051595531_retrytranche2_1041_19_alg».proof.Proof.Body
import proofs.«100764_g29996051595531_retrytranche2_1041_19_alg».proof.Proof.Payload
import proofs.«100764_g29996051595531_retrytranche2_1041_19_alg».proof.Proof.Spec

noncomputable section

open scoped BigOperators

namespace Cert.KernelIdeal.Blocks

open Cert.KernelIdeal Cert.KernelIdeal.Gen Idealize.ShloMosaic Idealize.ShloMosaic.ValueIdx Cert.GraphLayer

/-- Entry `j = (p, q)` of the block left at grid coordinate `i` is entry `(r, q)` of the layer, `r = 400·i + p`, when
    the step's adjacency block `x0` holds row `r` of `adj` as its row `p` and its other three buffers hold the
    whole arrays. -/
theorem block_entry (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S128x128 .f32) (h4 : a4.IsWhole) (a5 : Memref sig .tc .vmem S400x128 .f32) (h5 : a5.IsWhole)
    (x0 : Vec Ideal S400x10000 .f32) (x1 : Vec Ideal S10000x128 .f32) (x2 x3 : Vec Ideal S128x128 .f32)
    (feat : FeatIdx → EReal) (adj : AdjIdx → EReal) (ws wn : WIdx → EReal)
    (j : S400x128.Idx) (p : Fin 400) (q : Fin 128) (r : Fin 10000)
    (hj : j = ix2 p q) (hr : r.val = 400 * (i 0).val + p.val)
    (hadj : ∀ l : Fin 10000, x0 (ix2 p l) = adj (ix2 r l))
    (hfeat : x1 = feat) (hws : x2 = ws) (hwn : x3 = wn) :
    out0_A_4 c i a1 h1 a2 h2 a3 h3 a4 h4 a5 h5 x0 x1 x2 x3 j = layer feat adj ws wn (ix2 r q) := by
  subst hj hfeat hws hwn
  rw [Body.block_eq, Payload.payload_apply]
  unfold layer neighTerm selfTerm aggregate
  refine congrArg₂ (fun u v : EReal => max u v)
    (congrArg₂ (fun u v : EReal => u + v) (Finset.sum_congr rfl fun k _ => ?_) (Finset.sum_congr rfl fun k _ => ?_)) rfl
  · exact congrArg (fun z : EReal => z * x3 (ix2 k q))
      (Finset.sum_congr rfl fun l _ => congrArg (fun z : EReal => z * x1 (ix2 l k)) (hadj l))
  · exact congrArg (fun z : EReal => z * x2 (ix2 k q)) (Body.ownRows_apply i x1 p k r hr)

end Cert.KernelIdeal.Blocks

end
-- ==== Proof.Blocks.lean ====
/-
  From the blocks to the whole result array.

  The grid has 25 steps; step `t` is handed rows `400·t … 400·t + 399` of the adjacency array (all 10000 columns) and
  the whole feature array and weight matrices at every step, and writes rows `400·t … 400·t + 399` of the result.
  So what step `t` writes back is the layer restricted to those rows, the 25 row blocks tile the 10000 rows (row `r`
  lies in block `r / 400`), and after the run the result array is the layer of the four argument arrays.
-/
import proofs.«100764_g29996051595531_retrytranche2_1041_19_alg».proof.Proof.Gen.KernelIdeal.Value
import proofs.«100764_g29996051595531_retrytranche2_1041_19_alg».proof.Proof.BlockEntry
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ) (ρ : Dev nD → PrngReg)

/-- The result array after the run: the layer of the four argument arrays as launched. -/
abbrev result (c : Dev nD) : Buf (Elt Ideal) ((c : Thread nD τ).loc main_v0) :=
  layer (m ((c : Thread nD τ).loc main_arg0)) (m ((c : Thread nD τ).loc main_arg1)) (m ((c : Thread nD τ).loc main_arg2)) (m ((c : Thread nD τ).loc main_arg3))

/-- The block indices at step `t`, decided over the 25 steps: the adjacency and result blocks are row block `t`,
    the other three inputs are always block `(0, 0)`, and the step's grid coordinate is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- At every step the feature block is the whole feature array. -/
theorem feat_block (c : Dev nD) (t : Fin cfg0.N) : (iblk m c 1 t : Vec Ideal S10000x128 .f32) = m ((c : Thread nD τ).loc main_arg0) := by
  obtain ⟨e00, e01, e10, e11, e20, e21, e30, e31, e40, e41, eg⟩ := idx_facts t
  funext z
  show V m c main_arg0 (((cfg0.win 1).blk t).view.emb z) = V m c main_arg0 z
  refine congrArg (V m c main_arg0) ?_
  funext a
  apply Fin.ext
  match a with
  | ⟨0, _⟩ => show win0_1.index t (0 : Fin 2) * 10000 + 1 * (z 0).val = (z 0).val; omega
  | ⟨1, _⟩ => show win0_1.index t (1 : Fin 2) * 128 + 1 * (z 1).val = (z 1).val; omega

/-- At every step the first weight block is the whole of `weight_self`. -/
theorem ws_block (c : Dev nD) (t : Fin cfg0.N) : (iblk m c 2 t : Vec Ideal S128x128 .f32) = m ((c : Thread nD τ).loc main_arg2) := by
  obtain ⟨e00, e01, e10, e11, e20, e21, e30, e31, e40, e41, eg⟩ := idx_facts t
  funext z
  show V m c main_arg2 (((cfg0.win 2).blk t).view.emb z) = V m c main_arg2 z
  refine congrArg (V m c main_arg2) ?_
  funext a
  apply Fin.ext
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- At every step the second weight block is the whole of `weight_neigh`. -/
theorem wn_block (c : Dev nD) (t : Fin cfg0.N) : (iblk m c 3 t : Vec Ideal S128x128 .f32) = m ((c : Thread nD τ).loc main_arg3) := by
  obtain ⟨e00, e01, e10, e11, e20, e21, e30, e31, e40, e41, eg⟩ := idx_facts t
  funext z
  show V m c main_arg3 (((cfg0.win 3).blk t).view.emb z) = V m c main_arg3 z
  refine congrArg (V m c main_arg3) ?_
  funext a
  apply Fin.ext
  match a with
  | ⟨0, _⟩ => show win0_3.index t (0 : Fin 2) * 128 + 1 * (z 0).val = (z 0).val; omega
  | ⟨1, _⟩ => show win0_3.index t (1 : Fin 2) * 128 + 1 * (z 1).val = (z 1).val; omega

/-- Row `p` of step `t`'s adjacency block is row `400·t + p` of the adjacency array. -/
theorem adj_block (c : Dev nD) (t : Fin cfg0.N) (p : Fin 400) (r : Fin 10000) (hr : r.val = 400 * t.val + p.val) (l : Fin 10000) :
    (iblk m c 0 t : Vec Ideal S400x10000 .f32) (ix2 p l) = m ((c : Thread nD τ).loc main_arg1) (ix2 r l) := by
  obtain ⟨e00, e01, e10, e11, e20, e21, e30, e31, e40, e41, eg⟩ := idx_facts t
  show V m c main_arg1 (((cfg0.win 0).blk t).view.emb (ix2 p l)) = V m c main_arg1 (ix2 r l)
  refine congrArg (V m c main_arg1) ?_
  funext a
  apply Fin.ext
  match a with
  | ⟨0, _⟩ => show win0_0.index t (0 : Fin 2) * 400 + 1 * p.val = r.val; omega
  | ⟨1, _⟩ => show win0_0.index t (1 : Fin 2) * 10000 + 1 * l.val = l.val; omega

/-- What step `t` writes back is the layer read through the step's row block of the result array. -/
theorem flushed_eq (c : Dev nD) (t : Fin cfg0.N) :
    (dats m 0 c).flushed 4 t = ((cfg0.win 4).blk t).view.read (Elt Ideal) (result m c) := by
  rw [Value.flushed4_A]
  obtain ⟨e00, e01, e10, e11, e20, e21, e30, e31, e40, e41, eg⟩ := idx_facts t
  have hN : t.val < 25 := lt_of_lt_of_eq t.isLt N_0
  funext y
  have h0 : (y 0).val < 400 := (y 0).isLt
  have h1 : (y 1).val < 128 := (y 1).isLt
  have hr : 400 * t.val + (y 0).val < 10000 := by omega
  have hx : (cfg0.win 4).xinj (grid0.coords t) y = ix2 (⟨(y 0).val, h0⟩ : Fin 400) (⟨(y 1).val, h1⟩ : Fin 128) :=
    funext fun a => by match a with | ⟨0, _⟩ => rfl | ⟨1, _⟩ => rfl
  have hemb : ((cfg0.win 4).blk t).view.emb y
      = ix2 (⟨400 * t.val + (y 0).val, hr⟩ : Fin 10000) (⟨(y 1).val, h1⟩ : Fin 128) := by
    funext a
    apply Fin.ext
    match a with
    | ⟨0, _⟩ => show win0_4.index t (0 : Fin 2) * 400 + 1 * (y 0).val = 400 * t.val + (y 0).val; omega
    | ⟨1, _⟩ => show win0_4.index t (1 : Fin 2) * 128 + 1 * (y 1).val = (y 1).val; omega
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)
      ((cfg0.win 4).xinj (grid0.coords t) y) = result m c (((cfg0.win 4).blk t).view.emb y)
  refine (block_entry c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    ((cfg0.win 4).xinj (grid0.coords t) y) ⟨(y 0).val, h0⟩ ⟨(y 1).val, h1⟩ ⟨400 * t.val + (y 0).val, hr⟩ hx
    (by show 400 * t.val + (y 0).val = 400 * (grid0.coords t 0).val + (y 0).val; rw [eg])
    (fun l => adj_block m c t ⟨(y 0).val, h0⟩ ⟨400 * t.val + (y 0).val, hr⟩ rfl l)
    (feat_block m c t) (ws_block m c t) (wn_block m c t)).trans ?_
  exact congrArg (result m c) hemb.symm

/-- An index of the result array is in step `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 row blocks tile the result array: row `r` is in the block of step `r / 400`. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hlt : (i 0).val / 400 < cfg0.N := by show _ < grid0.N; rw [N_0]; omega
  obtain ⟨e00, e01, e10, e11, e20, e21, e30, e31, e40, e41, eg⟩ := idx_facts ⟨(i 0).val / 400, hlt⟩
  have e40' : win0_4.index ⟨(i 0).val / 400, hlt⟩ (0 : Fin 2) = (i 0).val / 400 := e40
  refine ⟨⟨(i 0).val / 400, hlt⟩, flush0_4 _, ?_⟩
  rw [mem_blk]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    omega
  | ⟨1, _⟩ =>
    show win0_4.index ⟨(i 0).val / 400, hlt⟩ (1 : Fin 2) * 128 ≤ (i 1).val ∧ (i 1).val < win0_4.index ⟨(i 0).val / 400, hlt⟩ (1 : Fin 2) * 128 + 128
    omega

/-- After the run the result array is the layer of the argument arrays. -/
theorem final (c : Dev nD) : (dats m 0 c).arrAt 4 cfg0.N = result m c :=
  (dats m 0 c).arrAt_eq_of_cover 4 (result m c) (fun t _ => flushed_eq m c t) cover

/-- The kernel's run: every weakly fair execution terminates with the result array at the layer of the launch
    contents of the four arguments, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefIsSpec.lean ====
/-
  The reference computes the layer.

  Its last stage is `max (feat · ws + (adj · feat) · wn, 0)`: three plain matrix products, each a sum over the one
  contracted coordinate, a sum of the two 10000 × 128 results and a maximum against the broadcast zero.  Reading the
  stages at an index, outermost first, and naming each product's operand indices by their coordinates gives the
  specification with its two summands in the other order.
-/
import proofs.«100764_g29996051595531_retrytranche2_1041_19_alg».proof.Proof.Gen.ReferenceIdeal.Read
import proofs.«100764_g29996051595531_retrytranche2_1041_19_alg».proof.Proof.Spec

noncomputable section

open scoped BigOperators

namespace Cert.ReferenceIdeal.RefValue

open Cert.ReferenceIdeal Cert.ReferenceIdeal.Read Idealize.ShloMosaic Idealize.ShloMosaic.ValueIdx Cert.GraphLayer

/-- The operand indices of `adj · feat` at output index `i` and contracted coordinate `k`: `(i₀, k)` and `(k, i₁)`. -/
theorem lidx0 (i : S10000x128.Idx) (k : Fin 10000) : lidx_main_v0 i k = ix2 (i 0) k :=
  funext fun a => Fin.ext (by match a with | ⟨0, _⟩ => rfl | ⟨1, _⟩ => rfl)
theorem ridx0 (i : S10000x128.Idx) (k : Fin 10000) : ridx_main_v0 i k = ix2 k (i 1) :=
  funext fun a => Fin.ext (by match a with | ⟨0, _⟩ => rfl | ⟨1, _⟩ => rfl)
/-- The same for `feat · ws`, -/
theorem lidx1 (i : S10000x128.Idx) (k : Fin 128) : lidx_main_v1 i k = ix2 (i 0) k :=
  funext fun a => Fin.ext (by match a with | ⟨0, _⟩ => rfl | ⟨1, _⟩ => rfl)
theorem ridx1 (i : S10000x128.Idx) (k : Fin 128) : ridx_main_v1 i k = ix2 k (i 1) :=
  funext fun a => Fin.ext (by match a with | ⟨0, _⟩ => rfl | ⟨1, _⟩ => rfl)
/-- and for `(adj · feat) · wn`. -/
theorem lidx2 (i : S10000x128.Idx) (k : Fin 128) : lidx_main_v2 i k = ix2 (i 0) k :=
  funext fun a => Fin.ext (by match a with | ⟨0, _⟩ => rfl | ⟨1, _⟩ => rfl)
theorem ridx2 (i : S10000x128.Idx) (k : Fin 128) : ridx_main_v2 i k = ix2 k (i 1) :=
  funext fun a => Fin.ext (by match a with | ⟨0, _⟩ => rfl | ⟨1, _⟩ => rfl)

/-- `adj · feat` read at an index is the neighbour aggregate of that row and column. -/
theorem aggregate_eq (x0 : (⟨S10000x128, .f32⟩ : BufTy).Contents (Elt Ideal)) (x1 : (⟨S10000x10000, .f32⟩ : BufTy).Contents (Elt Ideal))
    (j : S10000x128.Idx) : val_main_v0 (F := Ideal) x0 x1 j = aggregate x1 x0 (j 0) (j 1) := by
  rw [val_main_v0_apply]
  exact Finset.sum_congr rfl fun l _ => by rw [lidx0, ridx0]; rfl

/-- The reference's result, as a function of its four arguments, is the layer. -/
theorem result_is_layer (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) :
    val_main_v4 (F := Ideal) x0 x1 x2 x3 = layer x0 x1 x2 x3 := by
  funext i
  rw [val_main_v4_apply, val_main_v3_apply, val_main_v1_apply, val_main_v2_apply, val_main_call0_v0_apply,
    val_main_call0_cst_apply]
  have e1 : (∑ k : Fin 128, x0 (lidx_main_v1 i k) * x2 (ridx_main_v1 i k)) = selfTerm x0 x2 (i 0) (i 1) :=
    Finset.sum_congr rfl fun k _ => by rw [lidx1, ridx1]; rfl
  have e2 : (∑ k : Fin 128, val_main_v0 (F := Ideal) x0 x1 (lidx_main_v2 i k) * x3 (ridx_main_v2 i k))
      = neighTerm x1 x0 x3 (i 0) (i 1) :=
    Finset.sum_congr rfl fun k _ => by
      rw [lidx2, ridx2]
      exact congrArg (fun z : EReal => z * x3 (ix2 k (i 1))) (aggregate_eq x0 x1 (ix2 (i 0) k))
  rw [e1, e2]
  exact layer_comm x0 x1 x2 x3 i

end Cert.ReferenceIdeal.RefValue

end
-- ==== Proof.lean ====
/-
  The kernel computes one layer of neighbourhood aggregation over a dense graph,

      out = max ( (adj · feat) · weight_neigh + feat · weight_self , 0 ),

  row block by row block: 25 grid steps of 400 rows each.  A step multiplies its 400 adjacency rows by the whole
  feature array, sends the product through `weight_neigh`, adds its own 400 feature rows sent through `weight_self`,
  and clamps at zero.  The reference forms the same three matrix products over all 10000 rows at once, adds them in
  the other order (`feat · weight_self` first) and clamps at zero.

  On the extended reals the two results are equal entry by entry: each matrix product is the same finite sum over the
  contracted coordinate on both sides (a product accumulated into a zero block adds nothing), the kernel's row `p` of
  step `t` is the arrays' row `400·t + p`, the 25 row blocks tile the result, and the two summands commute.  No
  finiteness of the inputs is used.  The kernel's idealization rewrote no operation, so that conjunct is trivial; the
  three frames are the generated runs.
-/
import proofs.«100764_g29996051595531_retrytranche2_1041_19_alg».proof.Defs
import proofs.«100764_g29996051595531_retrytranche2_1041_19_alg».proof.Proof.Gen.Kernel
import proofs.«100764_g29996051595531_retrytranche2_1041_19_alg».proof.Proof.Gen.Kernel.Frame
import proofs.«100764_g29996051595531_retrytranche2_1041_19_alg».proof.Proof.Gen.KernelIdeal
import proofs.«100764_g29996051595531_retrytranche2_1041_19_alg».proof.Proof.Gen.KernelIdeal.Frame
import proofs.«100764_g29996051595531_retrytranche2_1041_19_alg».proof.Proof.Gen.KernelIdeal.Value
import proofs.«100764_g29996051595531_retrytranche2_1041_19_alg».proof.Proof.Gen.ReferenceIdeal
import proofs.«100764_g29996051595531_retrytranche2_1041_19_alg».proof.Proof.Gen.ReferenceIdeal.Run
import proofs.«100764_g29996051595531_retrytranche2_1041_19_alg».proof.Proof.Gen.ReferenceIdeal.Read
import proofs.«100764_g29996051595531_retrytranche2_1041_19_alg».proof.Proof.Gen.Pre_finite_inputs
import proofs.«100764_g29996051595531_retrytranche2_1041_19_alg».proof.Proof.Blocks
import proofs.«100764_g29996051595531_retrytranche2_1041_19_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- So does the reference: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- From memories that agree on the four arguments both programs end with the result array at the layer of those
    arguments: the kernel block by block, the reference by its three products, its sum and its clamp. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
